-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S32000x256 : Shape := ⟨2, ![32000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S32000x256 : S_.BroadcastsInDim S32000x256 (![] : Fin 0 → Fin S32000x256.rank)
  reducesTo_S32000x256_S_d0_1 : S32000x256.ReducesTo [0, 1] S_

variable [Facts]

def fn {F : FTy → Type} [FloatOps F] (main_arg0 : FVec F S4096x256 .f32) (main_arg1 : IVec S4096 32) (main_arg2 : FVec F S32000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S32000x256 .f32 := Host.absf main_arg2
  let main_cst_0 : FVec F S_ .f32 := constant S_ .f32 0x7F800000#32
  let main_v5 : FVec F S32000x256 .f32 := broadcastInDim S32000x256 ![] bcast_S_S32000x256 main_cst_0
  let main_v6 : IVec S32000x256 1 := cmpf .olt main_v4 main_v5
  let main_c_1 : IVec S_ 1 := constantI S_ 1 1#1
  let main_v7 : IVec S_ 1 := (fun x v => Host.reduce IntOp.andi x v reducesTo_S32000x256_S_d0_1 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S32000x256 : Shape := ⟨2, ![32000, 256]⟩
abbrev S4096x1 : Shape := ⟨2, ![4096, 1]⟩
abbrev S2x1x1 : Shape := ⟨3, ![2, 1, 1]⟩
abbrev S640x256 : Shape := ⟨2, ![640, 256]⟩
abbrev S2048x256 : Shape := ⟨2, ![2048, 256]⟩
abbrev S2048x1 : Shape := ⟨2, ![2048, 1]⟩
abbrev S1x1x1 : Shape := ⟨3, ![1, 1, 1]⟩
abbrev S1x1 : Shape := ⟨2, ![1, 1]⟩
abbrev S2048 : Shape := ⟨1, ![2048]⟩
abbrev S640 : Shape := ⟨1, ![640]⟩
abbrev S640x1 : Shape := ⟨2, ![640, 1]⟩
abbrev S1x640 : Shape := ⟨2, ![1, 640]⟩
abbrev S2048x640 : Shape := ⟨2, ![2048, 640]⟩
abbrev S1 : Shape := ⟨1, ![1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S32000x256, .f32⟩
  | .hbm, ⟨3, _⟩ => ⟨S4096x1, .i32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S640x256, .f32⟩
  | .local _ .vmem, ⟨1, _⟩ => ⟨S640x256, .f32⟩
  | .local _ .vmem, ⟨2, _⟩ => ⟨S2048x256, .f32⟩
  | .local _ .vmem, ⟨3, _⟩ => ⟨S2048x1, .i32⟩
  | .local _ .vmem, ⟨4, _⟩ => ⟨S1x1x1, .f32⟩
  | .local _ .vmem, ⟨5, _⟩ => ⟨S1x1x1, .f32⟩
  | .local _ .vmem, ⟨6, _⟩ => ⟨S2048x1, .f32⟩
  | .local _ .vmem, ⟨7, _⟩ => ⟨S2048x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S4096x1 : S4096.ShapeCasts S4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S640x256_S640x256_0_0 : ∀ a, (![0, 0] : Fin 2 → Nat) a + S640x256.size a ≤ S640x256.size a
  h_S640x256 : 0 < S640x256.numel
  reduces_S640x256_S640 : S640x256.Reduces [1] S640
  shapeCasts_S640_S640x1 : S640.ShapeCasts S640x1
  transposes_S640x1_p1_0_S1x640 : S640x1.Transposes [1, 0] S1x640
  broadcasts_S2048x1_S2048x640 : S2048x1.Broadcasts S2048x640
  broadcasts_S1x640_S2048x640 : S1x640.Broadcasts S2048x640
  iota_S1x640_d1_w32 : S1x640.Iotas .tc 32 [1]
  reduces_S2048x640_S2048 : S2048x640.Reduces [1] S2048
  reduces_S2048x1_S1 : S2048x1.Reduces [0] S1
  shapeCasts_S1_S1x1 : S1.ShapeCasts S1x1
  reducesTo_S2x1x1_S_d0_1_2 : S2x1x1.ReducesTo [0, 1, 2] S_
  h_S_ : 0 < S_.numel
  dot_S2048x256_S640x256_S2048x640_1_1_0_0_n_n_wf : DotDims.WF S2048x256 S640x256 S2048x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x256.size a ≤ S32000x256.size a
  hwx0_0 : ∀ i : grid0.Coords, EltTy.bits .f32 = 32 ∨ (Rect.block (s := S32000x256) S640x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .f32 = 32 ∨ (Rect.block (s := S4096x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .i32 = 32 ∨ (Rect.block (s := S4096x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S2048x256_S640x256_S2048x640_1_1_0_0_n_n : DotDims S2048x256 S640x256 S2048x640 where
  lhsContracting := [1]
  rhsContracting := [1]
  lhsNonContracting := [0]
  rhsNonContracting := [0]
  lhsBatch := []
  rhsBatch := []
  wf := dot_S2048x256_S640x256_S2048x640_1_1_0_0_n_n_wf

abbrev win0_0 : Pipeline.Window sig grid0 :=
  Pipeline.Window.ofSpec (Memref.whole main_arg2) S640x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S32000x256 : Shape := ⟨2, ![32000, 256]⟩
abbrev S_ : Shape := ⟨0, ![]⟩
abbrev S4096x1 : Shape := ⟨2, ![4096, 1]⟩
abbrev S32000 : Shape := ⟨1, ![32000]⟩
abbrev S1x32000 : Shape := ⟨2, ![1, 32000]⟩
abbrev S4096x32000 : Shape := ⟨2, ![4096, 32000]⟩

abbrev nBuf : Space → Nat
  | .hbm => 41
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S32000x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S32000x256, .f32⟩
  | .hbm, ⟨8, _⟩ => ⟨S_, .f32⟩
  | .hbm, ⟨9, _⟩ => ⟨S32000, .f32⟩
  | .hbm, ⟨10, _⟩ => ⟨S1x32000, .f32⟩
  | .hbm, ⟨11, _⟩ => ⟨S4096x32000, .f32⟩
  | .hbm, ⟨12, _⟩ => ⟨S4096x32000, .f32⟩
  | .hbm, ⟨13, _⟩ => ⟨S4096x32000, .f32⟩
  | .hbm, ⟨14, _⟩ => ⟨S4096x32000, .f32⟩
  | .hbm, ⟨15, _⟩ => ⟨S_, .f32⟩
  | .hbm, ⟨16, _⟩ => ⟨S4096x32000, .f32⟩
  | .hbm, ⟨17, _⟩ => ⟨S4096x32000, .f32⟩
  | .hbm, ⟨18, _⟩ => ⟨S4096x32000, .f32⟩
  | .hbm, ⟨19, _⟩ => ⟨S32000, .i32⟩
  | .hbm, ⟨20, _⟩ => ⟨S4096x1, .i32⟩
  | .hbm, ⟨21, _⟩ => ⟨S1x32000, .i32⟩
  | .hbm, ⟨22, _⟩ => ⟨S4096x32000, .i32⟩
  | .hbm, ⟨23, _⟩ => ⟨S4096x32000, .i32⟩
  | .hbm, ⟨24, _⟩ => ⟨S4096x32000, .i1⟩
  | .hbm, ⟨25, _⟩ => ⟨S4096x32000, .f32⟩
  | .hbm, ⟨26, _⟩ => ⟨S4096x32000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x32000, .f32⟩
  | .hbm, ⟨31, _⟩ => ⟨S4096x32000, .f32⟩
  | .hbm, ⟨32, _⟩ => ⟨S_, .f32⟩
  | .hbm, ⟨33, _⟩ => ⟨S4096x32000, .f32⟩
  | .hbm, ⟨34, _⟩ => ⟨S4096x32000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S32000x256_S32000_d1 : S32000x256.ReducesTo [1] S32000
  bcast_S32000_S1x32000_1 : S32000.BroadcastsInDim S1x32000 (![1] : Fin 1 → Fin S1x32000.rank)
  bcast_S4096x1_S4096x32000_0_1 : S4096x1.BroadcastsInDim S4096x32000 (![0, 1] : Fin 2 → Fin S4096x32000.rank)
  bcast_S1x32000_S4096x32000_0_1 : S1x32000.BroadcastsInDim S4096x32000 (![0, 1] : Fin 2 → Fin S4096x32000.rank)
  bcast_S_S4096x32000 : S_.BroadcastsInDim S4096x32000 (![] : Fin 0 → Fin S4096x32000.rank)
  reducesTo_S4096x32000_S_d0_1 : S4096x32000.ReducesTo [0, 1] S_
  dot_S4096x256_S32000x256_S4096x32000_1_1_0_0_n_n_wf : DotDims.WF S4096x256 S32000x256 S4096x32000 [1] [1] [0] [0] [] []

variable [Facts₀]

def dot_S4096x256_S32000x256_S4096x32000_1_1_0_0_n_n : DotDims S4096x256 S32000x256 S4096x32000 where
  lhsContracting := [1]
  rhsContracting := [1]
  lhsNonContracting := [0]
  rhsNonContracting := [0]
  lhsBatch := []
  rhsBatch := []
  wf := dot_S4096x256_S32000x256_S4096x32000_1_1_0_0_n_n_wf

class Facts : Prop extends Facts₀ where

variable [Facts]
-- ==== Proof.LibFlattenSum.lean ====
/-
  Sums over a flattened pair of feature blocks, regrouped.

  A row of 2·D·P features is laid out as two blocks of D·P features, each block indexed by (d, p) with
  p fastest: feature n = P·d + p in the first block, D·P + P·d + p in the second. Summing a function of the
  feature over the whole row is the same as summing, for each p, the two blocks' columns d — in any
  commutative monoid, so in particular on the extended reals with no finiteness assumed. Also: a sum over
  p < 2·Q split into its two halves, and a left-nested running sum from zero read as a finite sum.
-/
import Mathlib

namespace Cert.LibFlattenSum

open Finset

variable {M : Type*} [AddCommMonoid M]

/-- A sum over `Fin (D * P)` read as a double sum: `n = P * d + p`, the column `p` outermost. -/
theorem sum_block (D P : ℕ) (f : ℕ → M) :
    ∑ n : Fin (D * P), f n.val = ∑ p : Fin P, ∑ d : Fin D, f (P * d.val + p.val) := by
  rw [Finset.sum_comm]
  rw [← (finProdFinEquiv (m := D) (n := P)).sum_comp]
  rw [Fintype.sum_prod_type]
  refine Finset.sum_congr rfl fun d _ => Finset.sum_congr rfl fun p _ => ?_
  simp only [finProdFinEquiv_apply_val]
  congr 1
  ring

/-- A row of two blocks of `D * P` features each, summed column by column: for each `p` the first block's
    column and the second block's column. -/
theorem sum_two_blocks (D P : ℕ) (f : ℕ → M) :
    ∑ n : Fin (D * P + D * P), f n.val
      = ∑ p : Fin P, (∑ d : Fin D, f (P * d.val + p.val) + ∑ d : Fin D, f (D * P + (P * d.val + p.val))) := by
  rw [Fin.sum_univ_add]
  simp only [Fin.val_castAdd, Fin.val_natAdd]
  rw [sum_block D P f, sum_block D P fun n => f (D * P + n), ← Finset.sum_add_distrib]

/-- A sum over `p < Q + Q` is the sum of its two halves. -/
theorem sum_halves (Q : ℕ) (g : ℕ → M) :
    ∑ p : Fin (Q + Q), g p.val = ∑ p : Fin Q, g p.val + ∑ p : Fin Q, g (Q + p.val) := by
  rw [Fin.sum_univ_add]
  simp only [Fin.val_castAdd, Fin.val_natAdd]

end Cert.LibFlattenSum
-- ==== Proof.Spec.lean ====
/-
  The center loss as one function of its three arrays, on the extended reals.

  For embeddings E (4096 rows of 256 features), integer labels L (one per row) and class centers C (32000 rows
  of 256 features), the entry at row B and class c is the squared distance
      |E_B|² + |C_c|² − 2·⟨E_B, C_c⟩
  where L_B = c and 0 elsewhere, clamped from below and from above by two fixed constants. The loss is the sum
  of all 4096 × 32000 clamped entries, divided by 4096 and multiplied by one.

  The sum may be taken in any grouping, the extended reals being a commutative monoid under addition: below it is
  regrouped by halves of the rows (2 × 2048) and tiles of the classes (50 × 640), with no finiteness assumed.
-/
import Idealize.ShloMosaic.PureOps.Ideal
import Idealize.ShloMosaic.PureOps.Ideal.Laws
import Idealize.ShloMosaic.Lib.ValueIdx
import proofs.«109056_j17884243820955_2_alg».proof.Proof.LibFlattenSum

noncomputable section

open scoped BigOperators

namespace Cert.CenterLoss

open Idealize.ShloMosaic Idealize.ShloMosaic.ValueIdx

abbrev SE : Shape := ⟨2, ![4096, 256]⟩
abbrev SL : Shape := ⟨1, ![4096]⟩
abbrev SC : Shape := ⟨2, ![32000, 256]⟩
abbrev S0 : Shape := ⟨0, ![]⟩

/-- The zero word, the two clamps and the factor two, as the extended reals their words denote. -/
abbrev Z : EReal := Ideal.ofBits .f32 0x00000000#32
abbrev LO : EReal := Ideal.ofBits .f32 0x2B8CBCCC#32
abbrev HI : EReal := Ideal.ofBits .f32 0x5368D4A5#32
abbrev TWO : EReal := Ideal.ofBits .f32 0x40000000#32

/-- The squared norm of embedding row `B`. -/
def esq (E : FVec Ideal SE .f32) (B : Fin 4096) : EReal := ∑ k : Fin 256, E (ix2 B k) * E (ix2 B k)

/-- The squared norm of center `c`. -/
def csq (C : FVec Ideal SC .f32) (c : Fin 32000) : EReal := ∑ k : Fin 256, C (ix2 c k) * C (ix2 c k)

/-- The inner product of embedding row `B` and center `c`. -/
def dot (E : FVec Ideal SE .f32) (C : FVec Ideal SC .f32) (B : Fin 4096) (c : Fin 32000) : EReal :=
  ∑ k : Fin 256, E (ix2 B k) * C (ix2 c k)

/-- The clamped entry at row `B`, class `c`: the squared distance where the row's label is the class, zero elsewhere. -/
def term (E : FVec Ideal SE .f32) (L : SL.Idx → BitVec 32) (C : FVec Ideal SC .f32) (B : Fin 4096) (c : Fin 32000) : EReal :=
  min HI (max LO (Scalar.select (IntOp.cmpi .eq (L (ix1 B)) (BitVec.ofNat 32 c.val))
    ((esq E B + csq C c) - TWO * dot E C B c) Z))

/-- The same entry at natural-number coordinates (zero outside the array). -/
def termN (E : FVec Ideal SE .f32) (L : SL.Idx → BitVec 32) (C : FVec Ideal SC .f32) (B c : ℕ) : EReal :=
  if h : B < 4096 ∧ c < 32000 then term E L C ⟨B, h.1⟩ ⟨c, h.2⟩ else 0

theorem termN_val (E : FVec Ideal SE .f32) (L : SL.Idx → BitVec 32) (C : FVec Ideal SC .f32) (B : Fin 4096) (c : Fin 32000) :
    termN E L C B.val c.val = term E L C B c := by
  unfold termN
  rw [dif_pos ⟨B.isLt, c.isLt⟩]

/-- The sum of all clamped entries. -/
def total (E : FVec Ideal SE .f32) (L : SL.Idx → BitVec 32) (C : FVec Ideal SC .f32) : EReal :=
  ∑ B : Fin 4096, ∑ c : Fin 32000, term E L C B c

/-- The entries of rows `2048·b … 2048·b + 2047` and classes `640·s … 640·s + 639`, summed. -/
def tile (E : FVec Ideal SE .f32) (L : SL.Idx → BitVec 32) (C : FVec Ideal SC .f32) (b s : ℕ) : EReal :=
  ∑ r : Fin 2048, ∑ j : Fin 640, termN E L C (2048 * b + r.val) (640 * s + j.val)

/-- The last two steps: the quotient by 4096 and the product with one. -/
def tail (x : FVec Ideal S0 .f32) : FVec Ideal S0 .f32 :=
  mulf (Host.divf x (constant (F := Ideal) S0 .f32 0x45800000#32)) (constant (F := Ideal) S0 .f32 0x3F800000#32)

/-- THE LOSS. -/
def loss (E : FVec Ideal SE .f32) (L : SL.Idx → BitVec 32) (C : FVec Ideal SC .f32) : FVec Ideal S0 .f32 :=
  tail (fun _ => total E L C)

/-- The whole sum, regrouped: over the two halves of the rows and the fifty tiles of the classes. -/
theorem total_eq_tiles (E : FVec Ideal SE .f32) (L : SL.Idx → BitVec 32) (C : FVec Ideal SC .f32) :
    ∑ b : Fin 2, ∑ s ∈ Finset.range 50, tile E L C b.val s = total E L C := by
  unfold total tile
  have hrow : ∀ g : ℕ → EReal, ∑ B : Fin 4096, g B.val = ∑ r : Fin 2048, ∑ b : Fin 2, g (2048 * b.val + r.val) :=
    fun g => Cert.LibFlattenSum.sum_block 2 2048 g
  have hcol : ∀ g : ℕ → EReal, ∑ c : Fin 32000, g c.val = ∑ j : Fin 640, ∑ s : Fin 50, g (640 * s.val + j.val) :=
    fun g => Cert.LibFlattenSum.sum_block 50 640 g
  have e1 : ∑ B : Fin 4096, ∑ c : Fin 32000, term E L C B c
      = ∑ B : Fin 4096, (fun n : ℕ => ∑ c : Fin 32000, termN E L C n c.val) B.val :=
    Finset.sum_congr rfl fun B _ => Finset.sum_congr rfl fun c _ => (termN_val E L C B c).symm
  have e2 : ∀ n : ℕ, ∑ c : Fin 32000, termN E L C n c.val
      = ∑ j : Fin 640, ∑ s : Fin 50, termN E L C n (640 * s.val + j.val) :=
    fun n => hcol fun c => termN E L C n c
  rw [e1, hrow fun n : ℕ => ∑ c : Fin 32000, termN E L C n c.val]
  simp only [e2, Finset.sum_range]
  -- both sides are the same four-fold sum; three exchanges of the order of summation
  refine (Finset.sum_congr rfl fun b _ => Finset.sum_comm).trans ?_
  refine Finset.sum_comm.trans ?_
  exact Finset.sum_congr rfl fun r _ => Finset.sum_congr rfl fun b _ => Finset.sum_comm

end Cert.CenterLoss

end
-- ==== Proof.RefSide.lean ====
/-
  The reference program read as one function of its three argument arrays.

  Operation by operation the reference forms, at row B and class c, the squared distance |E_B|² + |C_c|² − 2·⟨E_B, C_c⟩
  (each squared norm a host sum from the zero word, the inner product a contraction over the 256 features), multiplies
  it by the 0/1 value of "label of B equals c", clamps it, sums everything from the zero word, divides by 4096 and
  multiplies by one. A product with a 0/1 value is a selection (x·1 = x, x·0 = 0 on the extended reals), the zero word
  is 0 and drops out of every sum: so the result is the loss of the specification.
-/
import proofs.«109056_j17884243820955_2_alg».proof.Proof.Gen.ReferenceIdeal.Read
import proofs.«109056_j17884243820955_2_alg».proof.Proof.Spec
import Idealize.ShloMosaic.Lib.ValueIdx
import Idealize.ShloMosaic.PureOps.Ideal.Laws

noncomputable section

open scoped BigOperators

namespace Cert.ReferenceIdeal.RefSide

open Cert.ReferenceIdeal Cert.ReferenceIdeal.Read Cert.CenterLoss
open Idealize.ShloMosaic Idealize.ShloMosaic.ValueIdx

/-- A one-bit integer read as a number, at the ideal values. -/
theorem uitofp_bit (b : BitVec 1) : FloatOps.uitofp (F := Ideal) .f32 b = (((b.toNat : ℕ) : ℝ) : EReal) := rfl

/-- A product with a one-bit mask read as a number is the selection between the factor and zero. -/
theorem mul_bit (X : EReal) (b : BitVec 1) : X * (((b.toNat : ℕ) : ℝ) : EReal) = Scalar.select b X Z := by
  by_cases h : b = 1#1
  · subst h
    rw [select_one]
    simp
  · obtain rfl := eq_zero_of_ne_one h
    rw [select_zero]
    simp [Ideal.ofBits_zero_f32]

/-- The reference's clamped entry at row `B`, class `c` is the specification's. -/
theorem entry_eq (x0 : FVec Ideal SE .f32) (x1 : SL.Idx → BitVec 32) (x2 : FVec Ideal SC .f32) (B : Fin 4096) (c : Fin 32000) :
    val_main_v21 (F := Ideal) x0 x1 x2 (ix2 B c) = term x0 x1 x2 B c := by
  have i1 : ∀ k : Fin 256, idx_main_v1 (idx_main_v2 (idx_main_v6 (ix2 B c))) k = ix2 B k :=
    fun k => funext fun a => Fin.ext (by match a with | ⟨0, _⟩ => rfl | ⟨1, _⟩ => rfl)
  have i4 : ∀ k : Fin 256, idx_main_v4 (idx_main_v5 (idx_main_v7 (ix2 B c))) k = ix2 c k :=
    fun k => funext fun a => Fin.ext (by match a with | ⟨0, _⟩ => rfl | ⟨1, _⟩ => rfl)
  have il : ∀ k : Fin 256, lidx_main_v9 (ix2 B c) k = ix2 B k :=
    fun k => funext fun a => Fin.ext (by match a with | ⟨0, _⟩ => rfl | ⟨1, _⟩ => rfl)
  have ir : ∀ k : Fin 256, ridx_main_v9 (ix2 B c) k = ix2 c k :=
    fun k => funext fun a => Fin.ext (by match a with | ⟨0, _⟩ => rfl | ⟨1, _⟩ => rfl)
  have i14 : idx_main_v14 (idx_main_v16 (ix2 B c)) = ix1 B :=
    funext fun a => Fin.ext (by match a with | ⟨0, _⟩ => rfl)
  have i13 : val_main_v13 (F := Ideal) (idx_main_v15 (idx_main_v17 (ix2 B c))) = BitVec.ofNat 32 c.val := rfl
  rw [val_main_v21_apply, val_main_call0_v4_apply, val_main_call0_v3_apply, val_main_cst_3_apply,
    val_main_call0_v2_apply, val_main_call0_v1_apply, val_main_call0_v0_apply, val_main_cst_2_apply,
    val_main_v20_apply, val_main_v12_apply, val_main_v8_apply, val_main_v6_apply, val_main_v2_apply,
    val_main_v1_apply, val_main_v7_apply, val_main_v5_apply, val_main_v4_apply, val_main_v11_apply,
    val_main_v10_apply, val_main_cst_1_apply, val_main_v9_apply, val_main_v19_apply, val_main_v18_apply,
    val_main_v16_apply, val_main_v14_apply, val_main_v17_apply, val_main_v15_apply, i13, i14]
  simp only [val_main_v0_apply, val_main_v3_apply, val_main_cst_apply, val_main_cst_0_apply, i1, i4, il, ir,
    Ideal.ofBits_def, Ideal.mulf_def, Ideal.addf_def, Ideal.subf_def, Ideal.maximumf_def, Ideal.minimumf_def,
    uitofp_bit, mul_bit, Ideal.ofBits_zero_f32, zero_add]
  unfold term esq csq dot
  rw [show (Z : EReal) = 0 from Ideal.ofBits_zero_f32]

/-- The reference's result is the loss. -/
theorem ref_eq (x0 : FVec Ideal SE .f32) (x1 : SL.Idx → BitVec 32) (x2 : FVec Ideal SC .f32) :
    val_main_v24 (F := Ideal) x0 x1 x2 = loss x0 x1 x2 := by
  have h22 : val_main_v22 (F := Ideal) x0 x1 x2 = fun _ => total x0 x1 x2 := by
    funext i
    rw [val_main_v22_apply, val_main_cst_4_apply, Ideal.ofBits_def, Ideal.ofBits_zero_f32, zero_add, sum_idx2]
    unfold total
    exact Finset.sum_congr rfl fun B _ => Finset.sum_congr rfl fun c _ => entry_eq x0 x1 x2 B c
  unfold val_main_v24 val_main_v23
  rw [h22]
  rfl

end Cert.ReferenceIdeal.RefSide

end
-- ==== Proof.Pieces.lean ====
/-
  What one run of the kernel body leaves behind, as values.

  The body is run at a grid point (core, class tile). At a core's FIRST class tile it stores three things: the
  core's 2048 embedding rows' squared norms (kept for the later tiles), those rows themselves (kept likewise), and,
  into the core's one-entry output block, zero plus the tile's sum. At every LATER tile it stores only the output
  block: what the block held plus the tile's sum, the tile's sum computed from the kept norms and rows.
  Each statement below reads the stores of one case back as the pure term of the body's loads.
-/
import proofs.«109056_j17884243820955_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the kept squared norms are the row sums of squares of the core's embedding block. -/
theorem sout_A_0 (c : Dev nD) (i : grid0.Coords) (arg2 : Memref sig .tc .vmem S640x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x256 .bf16) (harg7 : arg7.IsWhole) (hc0 : cond0_0 i) (x0 : Vec F S640x256 .f32) (x1 : Vec F S2048x256 .f32) (x2 : Vec F S2048x1 .i32) :
    sout0_A_0 c i arg2 harg2 arg3 harg3 arg4 harg4 arg5 harg5 arg6 harg6 arg7 harg7 hc0 x0 x1 x2 = k0_pay3 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S2048x256) hz2]

/-- First tile: the kept rows are the core's embedding block (its change of format). -/
theorem sout_A_1 (c : Dev nD) (i : grid0.Coords) (arg2 : Memref sig .tc .vmem S640x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x256 .bf16) (harg7 : arg7.IsWhole) (hc0 : cond0_0 i) (x0 : Vec F S640x256 .f32) (x1 : Vec F S2048x256 .f32) (x2 : Vec F S2048x1 .i32) :
    sout0_A_1 c i arg2 harg2 arg3 harg3 arg4 harg4 arg5 harg5 arg6 harg6 arg7 harg7 hc0 x0 x1 x2 = k0_pay4 x1 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S2048x256) hz2]

/-- First tile: the output block ends at zero plus the tile's sum, the sum taken over the norms and rows just kept. -/
theorem out_A (c : Dev nD) (i : grid0.Coords) (arg2 : Memref sig .tc .vmem S640x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x256 .bf16) (harg7 : arg7.IsWhole) (hc0 : cond0_0 i) (x0 : Vec F S640x256 .f32) (x1 : Vec F S2048x256 .f32) (x2 : Vec F S2048x1 .i32) :
    out0_A_3 c i arg2 harg2 arg3 harg3 arg4 harg4 arg5 harg5 arg6 harg6 arg7 harg7 hc0 x0 x1 x2 = k0_pay1 (k0_pay5 i x0 (k0_pay4 x1) (k0_pay3 x1) x2) (k0_pay2 (F := F)) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x1x1) hz3]
  simp only [View.readCov_unit_zero (S := S1x1x1) _ hz3, View.readCov_unit_zero (S := S2048x1) _ hz2,
    View.readCov_unit_zero (S := S2048x256) _ hz2, View.readAt_eq_ld, harg2.read_unread, harg3.read_unread,
    harg4.read_unread, View.ld_unit_zero (S := S640x256) hz2, View.ld_unit_zero (S := S2048x256) hz2,
    View.ld_unit_zero (S := S2048x1) hz2]

/-- Later tiles: the output block ends at what it held plus the tile's sum, over the kept norms and rows. -/
theorem out_B (c : Dev nD) (i : grid0.Coords) (arg2 : Memref sig .tc .vmem S640x256 .f32) (harg2 : arg2.IsWhole) (arg3 : Memref sig .tc .vmem S2048x256 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S2048x1 .f32) (harg6 : arg6.IsWhole) (arg7 : Memref sig .tc .vmem S2048x256 .bf16) (harg7 : arg7.IsWhole) (hc0 : ¬cond0_0 i) (x0 : Vec F S640x256 .f32) (x1 : Vec F S2048x256 .f32) (x2 : Vec F S2048x1 .i32) (xo3 : Vec F S1x1x1 .f32) (xs0 : Vec F S2048x1 .f32) (xs1 : Vec F S2048x256 .bf16) :
    out0_B_3 c i arg2 harg2 arg3 harg3 arg4 harg4 arg5 harg5 arg6 harg6 arg7 harg7 hc0 x0 x1 x2 xo3 xs0 xs1 = k0_pay1 (k0_pay5 i x0 xs1 xs0 x2) xo3 := by
  unfold out0_B_3
  rw [View.read_writes_eq_canon _ _ _ (cover0_B_3 c i arg2 harg2 arg3 harg3 arg4 harg4 arg5 harg5 arg6 harg6 arg7 harg7 hc0 x0 x1 x2 xo3 xs0 xs1)]
  unfold kernelRun0_B
  dsimp only
  sl_unfold_words
  rw [View.canon_unit_zero hz3]
  simp only [View.readAt_eq_ld, harg2.read_unread, harg4.read_unread, harg5.read_unread, harg6.read_unread,
    harg7.read_unread, View.ld_unit_zero (S := S640x256) hz2, View.ld_unit_zero (S := S2048x256) hz2,
    View.ld_unit_zero (S := S2048x1) hz2, View.ld_unit_zero (S := S1x1x1) hz3]

end Cert.KernelIdeal.Pieces

end
-- ==== Proof.Blocks.lean ====
/-
  The windows' blocks as rows of the arrays.

  The grid has 100 points, point t = 50·b + s being core b ∈ {0, 1} at class tile s ∈ {0, …, 49}. At that point the
  centers' window holds rows 640·s … 640·s + 639 of the centers, the embeddings' window rows 2048·b … 2048·b + 2047 of the
  embeddings, the labels' window the same rows of the labels (as a column), and the output window entry b of the
  two-entry result. A block's coordinate in its array is always (block index) × (block extent) + (coordinate inside).
-/
import proofs.«109056_j17884243820955_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Row `r` of core `b`'s half of the 4096 rows. -/
def rowIdx (b : ℕ) (r : Fin 2048) : Fin 4096 := ⟨(2048 * b + r.val) % 4096, Nat.mod_lt _ (by decide)⟩

/-- Class `j` of class tile `s`. -/
def clsIdx (s : ℕ) (j : Fin 640) : Fin 32000 := ⟨(640 * s + j.val) % 32000, Nat.mod_lt _ (by decide)⟩

theorem hN : cfg0.N = 100 := N_0

/-- The four index maps over the grid: the centers' block moves with the class tile, the other three with the core. -/
theorem idx0 : ∀ t : Fin cfg0.N, win0_0.index t 0 = t.val % 50 ∧ win0_0.index t 1 = 0 :=
  (by decide +kernel : ∀ t : Fin grid0.N, win0_0.index t 0 = t.val % 50 ∧ win0_0.index t 1 = 0)
theorem idx1 : ∀ t : Fin cfg0.N, win0_1.index t 0 = t.val / 50 ∧ win0_1.index t 1 = 0 :=
  (by decide +kernel : ∀ t : Fin grid0.N, win0_1.index t 0 = t.val / 50 ∧ win0_1.index t 1 = 0)
theorem idx2 : ∀ t : Fin cfg0.N, win0_2.index t 0 = t.val / 50 ∧ win0_2.index t 1 = 0 :=
  (by decide +kernel : ∀ t : Fin grid0.N, win0_2.index t 0 = t.val / 50 ∧ win0_2.index t 1 = 0)
theorem idx3 : ∀ t : Fin cfg0.N, win0_3.index t 0 = t.val / 50 ∧ win0_3.index t 1 = 0 ∧ win0_3.index t 2 = 0 :=
  (by decide +kernel : ∀ t : Fin grid0.N, win0_3.index t 0 = t.val / 50 ∧ win0_3.index t 1 = 0 ∧ win0_3.index t 2 = 0)
/-- The class-tile coordinate of a point. -/
theorem coord1 : ∀ t : Fin cfg0.N, (grid0.coords t 1).val = t.val % 50 :=
  (by decide +kernel : ∀ t : Fin grid0.N, (grid0.coords t 1).val = t.val % 50)

/-- The centers' block at a point: rows `640·s + j` of the centers, `s` the point's class tile. -/
theorem iblk0_apply (c : Dev nD) (t : Fin cfg0.N) (j : Fin 640) (k : Fin 256) :
    (iblk m c 0 t : Vec F S640x256 .f32) (ix2 j k) = V m c main_arg2 (ix2 (clsIdx (t.val % 50) j) k) := by
  have hi := idx0 t
  have ht : t.val < 100 := lt_of_lt_of_eq t.isLt hN
  unfold iblk
  rw [View.read_apply]
  show V m c main_arg2 _ = V m c main_arg2 _
  congr 1
  funext a
  apply Fin.ext
  match a with
  | ⟨0, _⟩ =>
    show win0_0.index t 0 * 640 + 1 * j.val = (640 * (t.val % 50) + j.val) % 32000
    rw [hi.1]; have := j.isLt; omega
  | ⟨1, _⟩ =>
    show win0_0.index t 1 * 256 + 1 * k.val = k.val
    rw [hi.2]; omega

/-- The embeddings' block at a point: rows `2048·b + r` of the embeddings, `b` the point's core. -/
theorem iblk1_apply (c : Dev nD) (t : Fin cfg0.N) (r : Fin 2048) (k : Fin 256) :
    (iblk m c 1 t : Vec F S2048x256 .f32) (ix2 r k) = V m c main_arg0 (ix2 (rowIdx (t.val / 50) r) k) := by
  have hi := idx1 t
  have ht : t.val < 100 := lt_of_lt_of_eq t.isLt hN
  unfold iblk
  rw [View.read_apply]
  show V m c main_arg0 _ = V m c main_arg0 _
  congr 1
  funext a
  apply Fin.ext
  match a with
  | ⟨0, _⟩ =>
    show win0_1.index t 0 * 2048 + 1 * r.val = (2048 * (t.val / 50) + r.val) % 4096
    rw [hi.1]; have := r.isLt; omega
  | ⟨1, _⟩ =>
    show win0_1.index t 1 * 256 + 1 * k.val = k.val
    rw [hi.2]; omega

/-- The labels' block at a point: rows `2048·b + r` of the label column. -/
theorem iblk2_apply (c : Dev nD) (t : Fin cfg0.N) (r : Fin 2048) (u : Fin 1) :
    (iblk m c 2 t : Vec F S2048x1 .i32) (ix2 r u) = V m c main_v0 (ix2 (rowIdx (t.val / 50) r) (0 : Fin 1)) := by
  have hi := idx2 t
  have ht : t.val < 100 := lt_of_lt_of_eq t.isLt hN
  unfold iblk
  rw [View.read_apply]
  show V m c main_v0 _ = V m c main_v0 _
  congr 1
  funext a
  apply Fin.ext
  match a with
  | ⟨0, _⟩ =>
    show win0_2.index t 0 * 2048 + 1 * r.val = (2048 * (t.val / 50) + r.val) % 4096
    rw [hi.1]; have := r.isLt; omega
  | ⟨1, _⟩ =>
    show win0_2.index t 1 * 1 + 1 * u.val = 0
    rw [hi.2]; have := u.isLt; omega

/-- The label column the region finds is the label vector cast to a column. -/
theorem V_labels (c : Dev nD) :
    (V m c main_v0 : S4096x1.Idx → BitVec 32) = shapeCast S4096x1 (m ((c : Thread nD τ).loc main_arg1)) shapeCasts_S4096_S4096x1 := by
  dsimp only [Gen.V, Gen.V0]
  simp only [Gen.hostOps0, List.flatten_cons, List.flatten_nil, List.append_nil, List.cons_append, List.nil_append]
  after_results
  rfl

/-- Two blocks of embeddings rows that agree at every (row, feature) are equal. -/
theorem ext_rows {α : Type} (f g : S2048x256.Idx → α) (hfg : ∀ (r : Fin 2048) (k : Fin 256), f (ix2 r k) = g (ix2 r k)) : f = g :=
  funext fun y => by rw [eq_ix2 y]; exact hfg _ _

/-- Within one core's run of points the embeddings' block does not move. -/
theorem iblk1_step (c : Dev nD) (n : ℕ) (h : n + 1 < cfg0.N) (hne : ¬(n + 1) % 50 = 0) :
    (iblk m c 1 ⟨n + 1, h⟩ : Vec F S2048x256 .f32) = iblk m c 1 ⟨n, Nat.lt_of_succ_lt h⟩ := by
  refine ext_rows _ _ fun r k => ?_
  refine (iblk1_apply m c ⟨n + 1, h⟩ r k).trans ?_
  refine Eq.trans ?_ (iblk1_apply m c ⟨n, Nat.lt_of_succ_lt h⟩ r k).symm
  have e : (n + 1) / 50 = n / 50 := by omega
  show V m c main_arg0 (ix2 (rowIdx ((n + 1) / 50) r) k) = V m c main_arg0 (ix2 (rowIdx (n / 50) r) k)
  rw [e]

end Cert.KernelIdeal.Blocks

end
-- ==== Proof.Accum.lean ====
/-
  What the output entry and the two kept buffers hold after each grid point.

  The 100 points run core 0's fifty class tiles, then core 1's. A core's first tile stores the squared norms and the
  rows of the core's 2048 embedding rows into two buffers that the later tiles only read, and starts the core's output
  entry at zero plus the tile's sum; every later tile adds its own tile's sum to what the entry held. So after point
  n the entry holds the sum of the addends of the points of n's core up to n — by induction on the point.
-/
import proofs.«109056_j17884243820955_2_alg».proof.Proof.Pieces
import proofs.«109056_j17884243820955_2_alg».proof.Proof.Blocks
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces Cert.KernelIdeal.Blocks Idealize.ShloMosaic.ValueIdx

section AnyValues

variable {F : FTy → Type} [FloatOps F]
variable (m : (ℓ : Loc nD τ sig) → Buf (Elt F) ℓ)

/-- What the body's run at point `t` adds to its core's output entry: the tile's sum, over the core's embedding rows
    (their norms and the rows themselves as the core's first tile kept them), the tile's centers and the rows' labels. -/
def addend (c : Dev nD) (t : Fin cfg0.N) : FVec F S1x1 .f32 :=
  k0_pay5 (grid0.coords t) (iblk m c 0 t) (k0_pay4 (iblk m c 1 t)) (k0_pay3 (iblk m c 1 t)) (iblk m c 2 t)

attribute [local irreducible] kernelRun0_A kernelRun0_B

/-- At a core's first tile the two kept buffers are stored: the squared norms and the rows of the core's embedding block. -/
theorem scratch_first (c : Dev nD) (t : Fin cfg0.N) (h0 : t.val % 50 = 0) :
    (outsAt0 m c t.val t.isLt).2.1 = k0_pay3 (iblk m c 1 t) ∧ (outsAt0 m c t.val t.isLt).2.2 = k0_pay4 (iblk m c 1 t) := by
  rw [outsAt0_A m c t h0]
  dsimp only
  exact ⟨sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t),
    sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)⟩

/-- At a later tile they are what the point before left. -/
theorem scratch_later (c : Dev nD) (t : Fin cfg0.N) (h0 : ¬t.val % 50 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  dsimp only
  unfold sout0_B_0 sout0_B_1
  exact ⟨rfl, rfl⟩

/-- THE KEPT SCRATCH. After every point the two kept buffers hold the squared norms and the rows of the point's
    core's embedding block: stored at the core's first tile, untouched at the later ones, during which the block
    does not move. -/
theorem scratch_inv (c : Dev nD) : ∀ (n : ℕ) (h : n < cfg0.N),
    (outsAt0 m c n h).2.1 = k0_pay3 (iblk m c 1 ⟨n, h⟩) ∧ (outsAt0 m c n h).2.2 = k0_pay4 (iblk m c 1 ⟨n, h⟩)
  | 0, h => scratch_first m c ⟨0, h⟩ rfl
  | n + 1, h => by
    by_cases h0 : (n + 1) % 50 = 0
    · exact scratch_first m c ⟨n + 1, h⟩ h0
    · have ih := scratch_inv c n (Nat.lt_of_succ_lt h)
      have hl := scratch_later m c ⟨n + 1, h⟩ h0
      have e := iblk1_step m c n h h0
      exact ⟨hl.1.trans (ih.1.trans (congrArg k0_pay3 e.symm)), hl.2.trans (ih.2.trans (congrArg k0_pay4 e.symm))⟩

/-- At a core's first tile the output entry is zero plus the tile's sum. -/
theorem out_first (c : Dev nD) (t : Fin cfg0.N) (h0 : t.val % 50 = 0) :
    (outsAt0 m c t.val t.isLt).1 = k0_pay1 (addend m c t) (k0_pay2 (F := F)) := by
  rw [outsAt0_A m c t h0]
  dsimp only
  exact out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- At a later tile it is what the point before left plus the tile's sum (over the kept norms and rows). -/
theorem out_later (c : Dev nD) (n : ℕ) (h : n + 1 < cfg0.N) (h0 : ¬(n + 1) % 50 = 0) :
    (outsAt0 m c (n + 1) h).1 = k0_pay1 (addend m c ⟨n + 1, h⟩) (outsAt0 m c n (Nat.lt_of_succ_lt h)).1 := by
  have ih := scratch_inv m c n (Nat.lt_of_succ_lt h)
  have e := iblk1_step m c n h h0
  have e1 : (outsAt0 m c n (Nat.lt_of_succ_lt h)).2.1 = k0_pay3 (iblk m c 1 ⟨n + 1, h⟩) := ih.1.trans (congrArg k0_pay3 e.symm)
  have e2 : (outsAt0 m c n (Nat.lt_of_succ_lt h)).2.2 = k0_pay4 (iblk m c 1 ⟨n + 1, h⟩) := ih.2.trans (congrArg k0_pay4 e.symm)
  have hB := outsAt0_B m c ⟨n + 1, h⟩ h0
  refine (congrArg Prod.fst hB).trans ?_
  dsimp only
  refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hc => h0 ((hcond0_0 ⟨n + 1, h⟩).mp hc)) (iblk m c 0 ⟨n + 1, h⟩) (iblk m c 1 ⟨n + 1, h⟩) (iblk m c 2 ⟨n + 1, h⟩) _ _ _).trans ?_
  unfold addend
  simp only [Nat.add_sub_cancel]
  rw [e1, e2]

end AnyValues

/-! ## The running sum, at the ideal values -/

section Ideal

variable (m : (ℓ : Loc nD τ sig) → Buf (Elt Ideal) ℓ)

/-- A cast between two one-entry shapes reads the one entry. -/
theorem shapeCast_single {s t : Shape} {α : Type} (x : s.Idx → α) (h : s.ShapeCasts t) (hs : s.numel = 1) (ht : t.numel = 1)
    (j : t.Idx) (k : s.Idx) : shapeCast t x h j = x k :=
  shapeCast_apply x h j k (by have h1 := (s.rowMajor k).isLt; have h2 := (t.rowMajor j).isLt; omega)

/-- The output entry after a store: what it held plus the tile's sum. -/
theorem pay1_apply (v36 : FVec Ideal S1x1 .f32) (v37 : Vec Ideal S1x1x1 .f32) (y : S1x1x1.Idx) :
    k0_pay1 (F := Ideal) v36 v37 y = v37 (ix3 (0 : Fin 1) (0 : Fin 1) (0 : Fin 1)) + v36 (ix2 (0 : Fin 1) (0 : Fin 1)) := by
  unfold k0_pay1
  refine (shapeCast_single _ _ (by decide) (by decide) y (ix2 (0 : Fin 1) (0 : Fin 1))).trans ?_
  show shapeCast S1x1 v37 shapeCasts_S1x1x1_S1x1 (ix2 (0 : Fin 1) (0 : Fin 1)) + v36 (ix2 (0 : Fin 1) (0 : Fin 1)) = _
  rw [shapeCast_single v37 _ (by decide) (by decide) (ix2 (0 : Fin 1) (0 : Fin 1)) (ix3 (0 : Fin 1) (0 : Fin 1) (0 : Fin 1))]

/-- The entry the first tile starts from: zero. -/
theorem pay2_apply (y : S1x1x1.Idx) : k0_pay2 (F := Ideal) y = 0 := by
  unfold k0_pay2
  refine (shapeCast_single _ _ (by decide) (by decide) y (ix2 (0 : Fin 1) (0 : Fin 1))).trans ?_
  exact Ideal.ofBits_zero_f32

/-- Point `n`'s addend as an extended real (zero past the grid). -/
def addN (c : Dev nD) (n : ℕ) : EReal :=
  if h : n < cfg0.N then addend m c ⟨n, h⟩ (ix2 (0 : Fin 1) (0 : Fin 1)) else 0

theorem addN_of_lt (c : Dev nD) (n : ℕ) (h : n < cfg0.N) : addN m c n = addend m c ⟨n, h⟩ (ix2 (0 : Fin 1) (0 : Fin 1)) := by
  unfold addN
  rw [dif_pos h]

/-- THE RUNNING SUM. After point `n` the output entry holds the sum of the addends of the points of `n`'s core up to
    `n`: the first tile stores zero plus its addend, every later tile adds its own. -/
theorem out_sum (c : Dev nD) : ∀ (n : ℕ) (h : n < cfg0.N) (y : S1x1x1.Idx),
    (outsAt0 m c n h).1 y = ∑ s ∈ Finset.range (n % 50 + 1), addN m c (50 * (n / 50) + s)
  | 0, h, y => by
    rw [out_first m c ⟨0, h⟩ rfl, pay1_apply, pay2_apply, zero_add]
    show _ = ∑ s ∈ Finset.range 1, addN m c (50 * (0 / 50) + s)
    rw [Finset.sum_range_one, addN_of_lt m c _ h]
  | n + 1, h, y => by
    by_cases h0 : (n + 1) % 50 = 0
    · rw [out_first m c ⟨n + 1, h⟩ h0, pay1_apply, pay2_apply, zero_add, h0]
      show _ = ∑ s ∈ Finset.range 1, addN m c (50 * ((n + 1) / 50) + s)
      rw [Finset.sum_range_one]
      have e : 50 * ((n + 1) / 50) + 0 = n + 1 := by omega
      rw [e, addN_of_lt m c _ h]
    · rw [out_later m c n h h0, pay1_apply, out_sum c n (Nat.lt_of_succ_lt h)]
      have e1 : (n + 1) % 50 + 1 = (n % 50 + 1) + 1 := by omega
      have e2 : (n + 1) / 50 = n / 50 := by omega
      have e3 : 50 * (n / 50) + (n % 50 + 1) = n + 1 := by omega
      rw [e1, e2, Finset.sum_range_succ _ (n % 50 + 1), e3, addN_of_lt m c _ h]

end Ideal

end Cert.KernelIdeal.Accum

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibRowCol.lean ====
/-
  Two column forms read at an index.

  * An `[a, 1]` column transposed to a `[1, a]` row reads, at `(0, j)`, the column's entry `j`.
  * A sum of an `[a, 1]` column over its first axis, on the extended reals, is the sum of the column's entries.

  With a row spread down the rows and a per-row quantity cast to a column they read a per-column quantity spread over
  all rows, and a column of per-row sums added up.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib

open Idealize.ShloMosaic Idealize.ShloMosaic.ValueIdx

variable {α : Type}

/-- An `[a, 1]` column transposed to a `[1, a]` row reads, at `(u, j)`, the operand at `(j, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (j : Fin a) :
    transpose ⟨2, ![1, a]⟩ [1, 0] x h (ix2 u j) = x (ix2 j (0 : Fin 1)) := by
  refine transpose_apply [1, 0] x h (ix2 u j) (ix2 j (0 : Fin 1)) fun b => ?_
  match b with
  | ⟨0, _⟩ =>
    show (0 : ℕ) = u.val
    have := u.isLt; omega
  | ⟨1, _⟩ => rfl

/-- Over the one result index, the source index with `k` on the reduced first axis of a column is `(k, 0)`. -/
theorem lift_col {a : ℕ} (h : (⟨2, ![a, 1]⟩ : Shape).Reduces [0] ⟨1, ![1]⟩) (u : Fin 1) (k : Fin a) :
    h.lift (ix1 u) k = ix2 k (0 : Fin 1) := by
  funext c
  apply Fin.ext
  match c with
  | ⟨0, _⟩ => rfl
  | ⟨1, hc⟩ =>
    have h1 : ((h.lift (ix1 u) k) ⟨1, hc⟩).val < 1 := ((h.lift (ix1 u) k) ⟨1, hc⟩).isLt
    show ((h.lift (ix1 u) k) ⟨1, hc⟩).val = 0
    omega

/-- A column sum: the sum of the column's entries. -/
theorem multiReduction_add_col {a : ℕ} {φ : FTy} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ X acc h hφ hacc (ix1 u) = ∑ k : Fin a, X (ix2 k (0 : Fin 1)) := by
  refine (Ideal.multiReduction_add_single X acc h hφ hacc (ix1 u)).trans ?_
  exact Finset.sum_congr rfl fun k _ => congrArg X (lift_col h u k)

end Cert.Lib

end
-- ==== Proof.TileSum.lean ====
/-
  The sum one run of the kernel body adds to its core's output entry.

  The body holds a tile of 640 centers (256 features each), the core's 2048 embedding rows and their squared norms
  (both kept from the core's first tile), and the rows' labels. It forms, for row r and column j of the tile,
      (|e_r|² + |c_j|²) − 2·⟨e_r, c_j⟩
  — the centers' squared norms as row sums of squares, the inner products as one matrix product contracting the
  feature axis of both operands —, keeps it where the row's label is the tile's class number (first class + j) and
  puts zero elsewhere, clamps, sums each row and then the column of row sums. Read at the extended reals, every change of
  format is the identity, and the result's one entry is the double sum below.
-/
import proofs.«109056_j17884243820955_2_alg».proof.Proof.Gen.KernelIdeal.Skeleton
import proofs.«109056_j17884243820955_2_alg».proof.Proof.Spec
import proofs.«109056_j17884243820955_2_alg».proof.Proof.LibKeepdims
import proofs.«109056_j17884243820955_2_alg».proof.Proof.LibRowReduce
import proofs.«109056_j17884243820955_2_alg».proof.Proof.LibRowCol
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileSum

open Cert.KernelIdeal Cert.KernelIdeal.Gen Cert.CenterLoss Cert.Lib
open Idealize.ShloMosaic Idealize.ShloMosaic.ValueIdx

local notation "DOT" => dot_S2048x256_S640x256_S2048x640_1_1_0_0_n_n

theorem lhs_0 (i : S2048x640.Idx) (q : (dot_S2048x256_S640x256_S2048x640_1_1_0_0_n_n).contr.Idx) :
    ((dot_S2048x256_S640x256_S2048x640_1_1_0_0_n_n).lhsIdx i q 0).val = (i 0).val := by
  unfold DotDims.lhsIdx
  rw [dif_neg (show ¬(0 : Fin S2048x256.rank) ∈ (dot_S2048x256_S640x256_S2048x640_1_1_0_0_n_n).lhsBatch by decide), dif_pos (show (0 : Fin S2048x256.rank) ∈ (dot_S2048x256_S640x256_S2048x640_1_1_0_0_n_n).lhsNonContracting by decide)]
  rfl
theorem lhs_1 (i : S2048x640.Idx) (q : (dot_S2048x256_S640x256_S2048x640_1_1_0_0_n_n).contr.Idx) :
    ((dot_S2048x256_S640x256_S2048x640_1_1_0_0_n_n).lhsIdx i q 1).val = (q ⟨0, by decide⟩).val :=
  (dot_S2048x256_S640x256_S2048x640_1_1_0_0_n_n).lhsIdx_val_of_single rfl i q
theorem rhs_0 (i : S2048x640.Idx) (q : (dot_S2048x256_S640x256_S2048x640_1_1_0_0_n_n).contr.Idx) :
    ((dot_S2048x256_S640x256_S2048x640_1_1_0_0_n_n).rhsIdx i q 0).val = (i 1).val := by
  unfold DotDims.rhsIdx
  rw [dif_neg (show ¬(0 : Fin S640x256.rank) ∈ (dot_S2048x256_S640x256_S2048x640_1_1_0_0_n_n).rhsBatch by decide), dif_pos (show (0 : Fin S640x256.rank) ∈ (dot_S2048x256_S640x256_S2048x640_1_1_0_0_n_n).rhsNonContracting by decide)]
  rfl
theorem rhs_1 (i : S2048x640.Idx) (q : (dot_S2048x256_S640x256_S2048x640_1_1_0_0_n_n).contr.Idx) :
    ((dot_S2048x256_S640x256_S2048x640_1_1_0_0_n_n).rhsIdx i q 1).val = (q ⟨0, by decide⟩).val :=
  (dot_S2048x256_S640x256_S2048x640_1_1_0_0_n_n).rhsIdx_val_of_single rfl i q

/-- The body's matrix product into the zero block, at row `p` and column `q`: the sum over the 256 features of the
    left operand's row `p` times the right operand's row `q` (both operands are contracted on their feature axis). -/
theorem matmul_rows_apply (l : FVec Ideal S2048x256 .bf16) (r : FVec Ideal S640x256 .bf16) (p : Fin 2048) (q : Fin 640) :
    matmul dot_S2048x256_S640x256_S2048x640_1_1_0_0_n_n none l r (constant S2048x640 .f32 0x00000000#32) (ix2 p q)
      = ∑ k : Fin 256, l (ix2 p k) * r (ix2 q k) := by
  refine (Ideal.matmul_constant_zero_apply dot_S2048x256_S640x256_S2048x640_1_1_0_0_n_n none l r (ix2 p q)).trans ?_
  rw [← Equiv.sum_comp (contrEquiv1 dot_S2048x256_S640x256_S2048x640_1_1_0_0_n_n 256 rfl rfl).symm]
  refine Finset.sum_congr rfl fun k _ => ?_
  have hk := contrEquiv1_symm_val dot_S2048x256_S640x256_S2048x640_1_1_0_0_n_n 256 rfl rfl k
  have el : (dot_S2048x256_S640x256_S2048x640_1_1_0_0_n_n).lhsIdx (ix2 p q) ((contrEquiv1 dot_S2048x256_S640x256_S2048x640_1_1_0_0_n_n 256 rfl rfl).symm k) = ix2 p k := funext fun a => Fin.ext (by
    match a with
    | ⟨0, _⟩ => exact lhs_0 _ _
    | ⟨1, _⟩ => exact (lhs_1 _ _).trans hk)
  have er : (dot_S2048x256_S640x256_S2048x640_1_1_0_0_n_n).rhsIdx (ix2 p q) ((contrEquiv1 dot_S2048x256_S640x256_S2048x640_1_1_0_0_n_n 256 rfl rfl).symm k) = ix2 q k := funext fun a => Fin.ext (by
    match a with
    | ⟨0, _⟩ => exact rhs_0 _ _
    | ⟨1, _⟩ => exact (rhs_1 _ _).trans hk)
  rw [el, er]

/-- The class number the body compares a row's label with, at class tile `s`, column `j`: `640·s + j` in 32-bit arithmetic. -/
def cls (s : ℕ) (j : Fin 640) : BitVec 32 :=
  IntOp.addi (Scalar.muli (BitVec.ofNat 32 s) 640#32) (BitVec.ofNat 32 j.val)

/-- One clamped entry as the body forms it from its four loads: the tile of centers `v3`, the kept embedding rows `v9`
    and their kept squared norms `v11`, the rows' labels `v22`. -/
def entryK (s : ℕ) (v3 : Vec Ideal S640x256 .f32) (v9 : Vec Ideal S2048x256 .bf16) (v11 : Vec Ideal S2048x1 .f32)
    (v22 : Vec Ideal S2048x1 .i32) (r : Fin 2048) (j : Fin 640) : EReal :=
  min HI (max LO (Scalar.select (IntOp.cmpi .eq (v22 (ix2 r (0 : Fin 1))) (cls s j))
    ((v11 (ix2 r (0 : Fin 1)) + ∑ k : Fin 256, v3 (ix2 j k) * v3 (ix2 j k)) - TWO * ∑ k : Fin 256, v9 (ix2 r k) * v3 (ix2 j k)) Z))

/-- The vector comparison at an index. -/
theorem cmpi_apply {s : Shape} {w : ℕ} (p : CmpIPredicate) (x y : IVec s w) (i : s.Idx) : cmpi p x y i = IntOp.cmpi p (x i) (y i) := rfl

/-- The vector integer sum at an index. -/
theorem addi_apply {s : Shape} {w : ℕ} (x y : IVec s w) (i : s.Idx) : addi x y i = IntOp.addi (x i) (y i) := rfl

/-- Equal labels, classes, norms and inner products give equal clamped entries. -/
theorem entry_congr {a a' b b' : BitVec 32} {e e' q q' d d' : EReal} (ha : a = a') (hb : b = b') (he : e = e') (hq : q = q')
    (hd : d = d') :
    min HI (max LO (Scalar.select (IntOp.cmpi .eq a b) ((e + q) - TWO * d) Z))
      = min HI (max LO (Scalar.select (IntOp.cmpi .eq a' b') ((e' + q') - TWO * d') Z)) := by
  subst ha hb he hq hd; rfl

/-- THE TILE'S SUM as the body computes it: its one-entry result is the sum, over the core's 2048 rows and the tile's 640
    classes, of the clamped entries. Every operation of the body is read at an index: the two nested sums (along a row, then
    down the column of row sums), the clamp and the selection pointwise, the labels and the kept norms spread along their
    rows, the centers' squared norms (row sums, turned into a row) spread down the rows, the class numbers counted along the
    row from the tile's first class, and the matrix product as inner products of rows. -/
theorem pay5_apply (i : grid0.Coords) (v3 : Vec Ideal S640x256 .f32) (v9 : Vec Ideal S2048x256 .bf16) (v11 : Vec Ideal S2048x1 .f32)
    (v22 : Vec Ideal S2048x1 .i32) :
    k0_pay5 (F := Ideal) i v3 v9 v11 v22 (ix2 (0 : Fin 1) (0 : Fin 1)) = ∑ r : Fin 2048, ∑ j : Fin 640, entryK (i 1).val v3 v9 v11 v22 r j := by
  unfold k0_pay5
  dsimp only
  refine (shapeCast_a_a1_apply _ _ (0 : Fin 1) (0 : Fin 1)).trans ?_
  refine (multiReduction_add_col _ _ _ _ _ (0 : Fin 1)).trans ?_
  refine Finset.sum_congr rfl fun r _ => ?_
  refine (shapeCast_a_a1_apply _ _ r (0 : Fin 1)).trans ?_
  refine (multiReduction_add_row _ _ _ _ _ r).trans ?_
  refine Finset.sum_congr rfl fun j _ => ?_
  simp only [minimumf_apply, maximumf_apply, select_apply, subf_apply, addf_apply, mulf_apply, broadcast_apply, cmpi_apply,
    Ideal.ofBits_def]
  unfold entryK
  refine entry_congr ?_ ?_ ?_ ?_ ?_
  · exact (broadcastTo_a1_ab_apply _ _ r j).trans (congrFun (shapeCast_self v22 _) _)
  · refine (broadcastTo_1b_ab_apply _ _ r j).trans ?_
    exact congrArg (IntOp.addi _) (iota_single_apply .tc S1x640 32 1 iota_S1x640_d1_w32 (ix2 (0 : Fin 1) j))
  · exact broadcastTo_a1_ab_apply _ _ r j
  · refine (broadcastTo_1b_ab_apply _ _ r j).trans ?_
    refine (transpose_a1_1a_apply _ _ (0 : Fin 1) j).trans ?_
    refine (shapeCast_a_a1_apply _ _ j (0 : Fin 1)).trans ?_
    exact multiReduction_add_row _ _ _ _ _ j
  · exact matmul_rows_apply v9 _ r j

end Cert.KernelIdeal.TileSum

end
-- ==== Proof.TileValue.lean ====
/-
  One run's addend is the specification's tile.

  At point t = 50·b + s the body's tile sum ranges over rows 2048·b + r of the embeddings and labels and classes
  640·s + j of the centers. The kept squared norms are the rows' sums of squares, the kept rows are the rows (a change
  of format is the identity on the extended reals), the class number the body counts in 32-bit arithmetic is 640·s + j
  itself (no wrap: it is below 32000), and the label column is the label vector. So the addend is the sum of the
  specification's clamped entries over that 2048 × 640 rectangle.
-/
import proofs.«109056_j17884243820955_2_alg».proof.Proof.Accum
import proofs.«109056_j17884243820955_2_alg».proof.Proof.TileSum
import proofs.«109056_j17884243820955_2_alg».proof.Proof.Spec

noncomputable section

open scoped BigOperators

open Idealize.ShloMosaic Idealize.ShloMosaic.TcCoe Idealize.SL.Sem

namespace Cert.KernelIdeal.TileValue

open Cert.KernelIdeal Cert.KernelIdeal.Gen Cert.KernelIdeal.Blocks Cert.KernelIdeal.Accum Cert.KernelIdeal.TileSum
open Cert.CenterLoss Cert.Lib Idealize.ShloMosaic.ValueIdx

variable (m : (ℓ : Loc nD τ sig) → Buf (Elt Ideal) ℓ)

/-- The kept squared norm of row `r`: the sum of the squares of the row's 256 features. -/
theorem pay3_apply (x : Vec Ideal S2048x256 .f32) (r : Fin 2048) :
    k0_pay3 (F := Ideal) x (ix2 r (0 : Fin 1)) = ∑ k : Fin 256, x (ix2 r k) * x (ix2 r k) := by
  unfold k0_pay3
  rw [shapeCast_self]
  refine (shapeCast_a_a1_apply _ _ r (0 : Fin 1)).trans ?_
  exact multiReduction_add_row _ _ _ _ _ r

/-- The kept rows are the rows. -/
theorem pay4_apply (x : Vec Ideal S2048x256 .f32) (r : Fin 2048) (k : Fin 256) :
    k0_pay4 (F := Ideal) x (ix2 r k) = x (ix2 r k) := by
  unfold k0_pay4
  rw [shapeCast_self]
  rfl

/-- The class number counted in 32-bit arithmetic from the tile's first class is the class number. -/
theorem cls_eq (s : ℕ) (j : Fin 640) : cls s j = BitVec.ofNat 32 (640 * s + j.val) := by
  unfold cls
  show BitVec.ofNat 32 s * BitVec.ofNat 32 640 + BitVec.ofNat 32 j.val = BitVec.ofNat 32 (640 * s + j.val)
  rw [BitVec.ofNat_add, BitVec.ofNat_mul, BitVec.mul_comm]

/-- Row `r` of core `b`'s half, for a core that exists. -/
theorem rowIdx_eq (b : ℕ) (r : Fin 2048) (h : 2048 * b + r.val < 4096) : rowIdx b r = ⟨2048 * b + r.val, h⟩ :=
  Fin.ext (Nat.mod_eq_of_lt h)

/-- Class `j` of tile `s`, for a tile that exists. -/
theorem clsIdx_eq (s : ℕ) (j : Fin 640) (h : 640 * s + j.val < 32000) : clsIdx s j = ⟨640 * s + j.val, h⟩ :=
  Fin.ext (Nat.mod_eq_of_lt h)

/-- THE ADDEND of point `t`, core `t / 50`, class tile `t % 50`: the specification's tile of the argument arrays. -/
theorem addend_eq (c : Dev nD) (t : Fin cfg0.N) :
    addend m c t (ix2 (0 : Fin 1) (0 : Fin 1))
      = tile (m ((c : Thread nD τ).loc main_arg0)) (m ((c : Thread nD τ).loc main_arg1)) (m ((c : Thread nD τ).loc main_arg2))
          (t.val / 50) (t.val % 50) := by
  have ht : t.val < 100 := lt_of_lt_of_eq t.isLt Blocks.hN
  unfold addend
  rw [pay5_apply]
  unfold tile
  refine Finset.sum_congr rfl fun r _ => Finset.sum_congr rfl fun j _ => ?_
  have hB : 2048 * (t.val / 50) + r.val < 4096 := by have := r.isLt; omega
  have hC : 640 * (t.val % 50) + j.val < 32000 := by have := j.isLt; omega
  unfold termN
  rw [dif_pos ⟨hB, hC⟩]
  unfold entryK term esq csq dot
  rw [coord1 t, cls_eq]
  refine entry_congr ?_ rfl ?_ ?_ ?_
  · refine (iblk2_apply m c t r (0 : Fin 1)).trans ?_
    rw [V_labels, rowIdx_eq _ _ hB]
    exact shapeCast_a_a1_apply _ _ _ _
  · refine (pay3_apply _ r).trans (Finset.sum_congr rfl fun k _ => ?_)
    rw [iblk1_apply, V_main_arg0, rowIdx_eq _ _ hB]
  · refine Finset.sum_congr rfl fun k _ => ?_
    rw [iblk0_apply, V_main_arg2, clsIdx_eq _ _ hC]
  · refine Finset.sum_congr rfl fun k _ => ?_
    rw [pay4_apply, iblk1_apply, V_main_arg0, rowIdx_eq _ _ hB, iblk0_apply, V_main_arg2, clsIdx_eq _ _ hC]

end Cert.KernelIdeal.TileValue

end
-- ==== Proof.KernelSide.lean ====
/-
  The kernel program's result is the loss.

  The region leaves a two-entry array, one entry per core; a core's entry is written back once, after the core's fiftieth
  class tile, and holds the sum of the core's fifty tile sums. After the region the host adds the two entries from the
  zero word, divides by 4096 and multiplies by one. Each tile sum is the specification's tile of the argument arrays,
  and the 2 × 50 tiles regroup to the sum of all 4096 × 32000 clamped entries: the result is the loss.
-/
import proofs.«109056_j17884243820955_2_alg».proof.Proof.Accum
import proofs.«109056_j17884243820955_2_alg».proof.Proof.TileValue
import proofs.«109056_j17884243820955_2_alg».proof.Proof.Spec
import Idealize.ShloMosaic.Lib.Pipeline.Value
import Idealize.ShloMosaic.Lib.StableHlo.Run
import Idealize.ShloMosaic.Lib.Tactic
import Idealize.ShloMosaic.PureOps.Ideal.Laws

noncomputable section

open scoped BigOperators

open Idealize.ShloMosaic Idealize.ShloMosaic.TcCoe Idealize.SL.Sem
open Idealize.ShloMosaic.Pipeline (Dat)

namespace Cert.KernelIdeal.KernelSide

open Cert.KernelIdeal Cert.KernelIdeal.Gen Cert.KernelIdeal.Blocks Cert.KernelIdeal.Accum Cert.KernelIdeal.TileValue
open Cert.CenterLoss Idealize.ShloMosaic.ValueIdx

variable (m : (ℓ : Loc nD τ sig) → Buf (Elt Ideal) ℓ) (ρ : Dev nD → PrngReg)

/-- The two-entry result of the region: entry `b` is the sum of the addends of core `b`'s fifty points. -/
def Gv (c : Dev nD) : S2x1x1.Idx → EReal :=
  fun i => ∑ s ∈ Finset.range 50, addN m c (50 * (i 0).val + s)

/-- The same as contents of the region's result array. -/
abbrev G (c : Dev nD) : Buf (Elt Ideal) ((c : Thread nD τ).loc main_v1) := Gv m c

/-- A core's entry is written back once, after the core's last tile, and what is written is the core's whole sum. -/
theorem flushed_eq (c : Dev nD) (t : Fin cfg0.N) (hf : (cfg0.win 3).flush t = true) :
    (dats m 0 c).flushed 3 t = ((cfg0.win 3).blk t).view.read (Elt Ideal) (G m c) := by
  have h49 : t.val % 50 = 49 := (flush0_3 t).mp hf
  have hi := idx3 t
  funext y
  show (cfg0.win 3).cut (grid0.coords t) ((dats m 0 c).after 3 t) y = _
  rw [after0_3, View.read_apply]
  show (outsAt0 m c t.val t.isLt).1 ((cfg0.win 3).xinj (grid0.coords t) y) = Gv m c (((cfg0.win 3).blk t).view.emb y)
  rw [out_sum m c t.val t.isLt, h49]
  show _ = Gv m c _
  unfold Gv
  have e0 : ((((cfg0.win 3).blk t).view.emb y) 0).val = t.val / 50 := by
    show win0_3.index t 0 * 1 + 1 * (y 0).val = t.val / 50
    have hy : (y 0).val < 1 := (y 0).isLt
    rw [hi.1]; omega
  rw [e0]

/-- The two write-backs (after points 49 and 99) cover the two entries. -/
theorem cover (c : Dev nD) (i : S2x1x1.Idx) :
    ∃ t : Fin cfg0.N, (cfg0.win 3).flush t = true ∧ i ∈ ((cfg0.win 3).blk t).view.set := by
  have hN : cfg0.N = 100 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 50 * (i 0).val + 49 := ⟨⟨50 * (i 0).val + 49, by omega⟩, rfl⟩
  have hi := idx3 t
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 1 ≤ (i 0 : ℕ) ∧ (i 0 : ℕ) < win0_3.index t 0 * 1 + 1
    rw [hi.1]; omega
  | ⟨1, _⟩ =>
    show win0_3.index t 1 * 1 ≤ (i 1 : ℕ) ∧ (i 1 : ℕ) < win0_3.index t 1 * 1 + 1
    rw [hi.2.1]; omega
  | ⟨2, _⟩ =>
    show win0_3.index t 2 * 1 ≤ (i 2 : ℕ) ∧ (i 2 : ℕ) < win0_3.index t 2 * 1 + 1
    rw [hi.2.2]; omega

/-- So the region leaves the two cores' sums in its result array. -/
theorem final3 (c : Dev nD) : (dats m 0 c).arrAt 3 cfg0.N = G m c :=
  (dats m 0 c).arrAt_eq_of_cover 3 (G m c) (flushed_eq m c) (cover c)

/-- An index of the two-entry array is its first coordinate. -/
theorem idx211_eq (i : S2x1x1.Idx) : i = ix3 (i 0) (0 : Fin 1) (0 : Fin 1) := by
  funext a
  apply Fin.ext
  match a with
  | ⟨0, _⟩ => rfl
  | ⟨1, h⟩ =>
    have h1 : (i ⟨1, h⟩).val < 1 := (i ⟨1, h⟩).isLt
    show (i ⟨1, h⟩).val = 0
    omega
  | ⟨2, h⟩ =>
    have h1 : (i ⟨2, h⟩).val < 1 := (i ⟨2, h⟩).isLt
    show (i ⟨2, h⟩).val = 0
    omega

/-- A sum over the two-entry array is the sum over its two entries. -/
theorem sum_two (f : S2x1x1.Idx → EReal) : ∑ i, f i = ∑ b : Fin 2, f (ix3 b (0 : Fin 1) (0 : Fin 1)) :=
  Fintype.sum_equiv ⟨fun i => i 0, fun b => ix3 b (0 : Fin 1) (0 : Fin 1), fun i => (idx211_eq i).symm, fun b => rfl⟩ _ _
    fun i => congrArg f (idx211_eq i)

/-- The host's sum of the two cores' entries, from the zero word, is the sum of all clamped entries: each core's entry is
    the sum of its fifty tiles, and the tiles regroup to the whole 4096 × 32000 sum. -/
theorem reduce_eq (c : Dev nD) :
    Host.reduceAdd (F := Ideal) (Gv m c) (constant (F := Ideal) S_ .f32 0x00000000#32) reducesTo_S2x1x1_S_d0_1_2 h_S_
      = fun _ => total (m ((c : Thread nD τ).loc main_arg0)) (m ((c : Thread nD τ).loc main_arg1)) (m ((c : Thread nD τ).loc main_arg2)) := by
  funext i
  simp only [Host.reduceAdd, Ideal.hostReduceAdd_def]
  refine (Ideal.hostReduceAdd_total reducesTo_S2x1x1_S_d0_1_2 (fun b => b.elim0) _ _ i).trans ?_
  show Ideal.ofBits .f32 0x00000000#32 + ∑ j : S2x1x1.Idx, Gv m c j = _
  rw [Ideal.ofBits_zero_f32, zero_add, sum_two, ← total_eq_tiles]
  refine Finset.sum_congr rfl fun b _ => ?_
  unfold Gv
  refine Finset.sum_congr rfl fun s hs => ?_
  have hs' : s < 50 := Finset.mem_range.mp hs
  have hb : b.val < 2 := b.isLt
  have hlt : 50 * b.val + s < cfg0.N := by rw [Blocks.hN]; omega
  show addN m c (50 * b.val + s) = _
  rw [addN_of_lt m c _ hlt, addend_eq]
  have e1 : (50 * b.val + s) / 50 = b.val := by omega
  have e2 : (50 * b.val + s) % 50 = s := by omega
  show tile _ _ _ ((50 * b.val + s) / 50) ((50 * b.val + s) % 50) = _
  rw [e1, e2]

/-- THE KERNEL'S RESULT: after the region, the host sums the two entries, divides by 4096 and multiplies by one — the loss. -/
theorem result_eq (c : Dev nD) : Pipeline.afterTail₀ cfgs (dats m) 0 (V0 m) [hostOps1] c main_v4
    = loss (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v1) = G m c from
    (Pipeline.withArrays_arr spec0 launch0.win.arr_inj c _ _ 3).trans (final3 m c)]
  unfold loss tail
  rw [← reduce_eq m c]

/-- THE RUN, READ. Every weakly fair execution of the program terminates with its result at the loss of the argument
    arrays, and the three arguments as they were. -/
theorem run : θ_run defs (onTc (τ := τ) (main (F := Ideal))) ⟨m, fun _ => 0, ρ⟩ fun r => ∀ c : Dev nD,
      r.2.mem ((c.tc : Thread nD τ).loc main_v4)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.KernelSide

end
-- ==== Proof.lean ====
/-
  The center-loss kernel computes its reference's function on the extended reals.

  Both programs take embeddings E (4096 × 256), labels L (4096) and centers C (32000 × 256) and return one number:
  the sum over all rows B and classes c of the clamped entry
      clamp( |E_B|² + |C_c|² − 2·⟨E_B, C_c⟩  where L_B = c,  0 elsewhere ),
  divided by 4096 and multiplied by one. The reference forms the 4096 × 32000 matrix at once, masking by a product with
  the 0/1 value of the comparison, and sums it. The kernel splits the rows between two cores and the classes into fifty
  tiles of 640: at a core's first tile it keeps the core's rows and their squared norms, at every tile it adds the tile's
  2048 × 640 clamped entries (masked by selection) into the core's entry, and the host adds the two entries.

  The two agree because x·1 = x and x·0 = 0 on the extended reals (so the product with the mask is the selection), because
  the zero word is 0, and because a finite sum over a commutative monoid may be taken in any grouping — none of which needs
  the inputs to be finite, so the precondition is not opened. The idealization pass rewrote no operation, so the
  preservation claim is trivial; the three frame claims are the programs' generated runs.
-/
import proofs.«109056_j17884243820955_2_alg».proof.Defs
import proofs.«109056_j17884243820955_2_alg».proof.Proof.Gen.Kernel
import proofs.«109056_j17884243820955_2_alg».proof.Proof.Gen.Kernel.Skeleton
import proofs.«109056_j17884243820955_2_alg».proof.Proof.Gen.Kernel.Launch
import proofs.«109056_j17884243820955_2_alg».proof.Proof.Gen.Kernel.Points
import proofs.«109056_j17884243820955_2_alg».proof.Proof.Gen.Kernel.Frame
import proofs.«109056_j17884243820955_2_alg».proof.Proof.Gen.KernelIdeal
import proofs.«109056_j17884243820955_2_alg».proof.Proof.Gen.KernelIdeal.Skeleton
import proofs.«109056_j17884243820955_2_alg».proof.Proof.Gen.KernelIdeal.Launch
import proofs.«109056_j17884243820955_2_alg».proof.Proof.Gen.KernelIdeal.Points
import proofs.«109056_j17884243820955_2_alg».proof.Proof.Gen.KernelIdeal.Frame
import proofs.«109056_j17884243820955_2_alg».proof.Proof.Gen.ReferenceIdeal
import proofs.«109056_j17884243820955_2_alg».proof.Proof.Gen.ReferenceIdeal.Run
import proofs.«109056_j17884243820955_2_alg».proof.Proof.Gen.ReferenceIdeal.Read
import proofs.«109056_j17884243820955_2_alg».proof.Proof.Gen.Pre_finite_inputs
import proofs.«109056_j17884243820955_2_alg».proof.Proof.RefSide
import proofs.«109056_j17884243820955_2_alg».proof.Proof.KernelSide
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was read at the extended reals. -/
theorem preserves : Cert.preserves_Kernel_KernelIdeal := trivial

/-- From memories that agree on the three arguments both programs end with the loss of those arguments. -/
theorem algebraic : Cert.algebraic_KernelIdeal_ReferenceIdeal := by
  intro m ρ m' ρ' _ hagree
  refine ⟨fun c => Cert.CenterLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelSide.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefSide.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
